-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S1x8192 .f32) (main_arg1 : FVec F S8192x8192 .f32) (main_arg2 : FVec F S8192 .f32) (main_arg3 : FVec F S8192 .f32) (main_arg4 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S1x8192 : Shape := ⟨2, ![1, 8192]⟩
abbrev S8192x8192 : Shape := ⟨2, ![8192, 8192]⟩
abbrev S8192 : Shape := ⟨1, ![8192]⟩
abbrev S512x8192 : Shape := ⟨2, ![512, 8192]⟩
abbrev S1x512 : Shape := ⟨2, ![1, 512]⟩
abbrev S512x2048 : Shape := ⟨2, ![512, 2048]⟩
abbrev S1x2048 : Shape := ⟨2, ![1, 2048]⟩
abbrev S_ : Shape := ⟨0, ![]⟩

abbrev nBuf : Space → Nat
  | .hbm => 28
  | .vmem => 15
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S1x8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .local _ .vmem, ⟨0, _⟩ => ⟨S1x8192, .f32⟩
  | .local _ .vmem, ⟨1, _⟩ => ⟨S512x8192, .f32⟩
  | .local _ .vmem, ⟨2, _⟩ => ⟨S512x8192, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c2048_i32 : BitVec 32 := 2048#32
  let v1 : BitVec 32 := Scalar.muli c0_i32 c2048_i32
  v1
def k0_off1 (c0_i32 : BitVec 32) : Fin 2 → Nat :=
  let c0 : Index := 0#32
  let c2048_i32 : BitVec 32 := 2048#32
  let v1 : BitVec 32 := Scalar.muli c0_i32 c2048_i32
  let v2 : BitVec 32 := v1
  let v3 : Index := Scalar.indexCast v2
  ![0, v3.toNat]
def k0_off2 (c0_i32 : BitVec 32) : Fin 2 → Nat :=
  let c0_1 : Index := 0#32
  let c2048_i32 : BitVec 32 := 2048#32
  let v1 : BitVec 32 := Scalar.muli c0_i32 c2048_i32
  let v2 : BitVec 32 := v1
  let v10 : Index := Scalar.indexCast v2
  ![0, v10.toNat]
def k0_mult2 : BitVec 32 :=
  let c1_i32 : BitVec 32 := 1#32
  let c2048_i32_3 : BitVec 32 := 2048#32
  let v15 : BitVec 32 := Scalar.muli c1_i32 c2048_i32_3
  v15
def k0_mult3 : BitVec 32 :=
  let c2_i32 : BitVec 32 := 2#32
  let c2048_i32_8 : BitVec 32 := 2048#32
  let v29 : BitVec 32 := Scalar.muli c2_i32 c2048_i32_8
  v29
def k0_mult4 : BitVec 32 :=
  let c3_i32 : BitVec 32 := 3#32
  let c2048_i32_13 : BitVec 32 := 2048#32
  let v43 : BitVec 32 := Scalar.muli c3_i32 c2048_i32_13
  v43
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8192_S1x8192 : S8192.ShapeCasts S1x8192
  h_S512x2048 : 0 < S512x2048.numel
  natLt_1_32 : 1 < 32
  bitsLt_bf16_f32 : FTy.bits .bf16 < FTy.bits .f32
  h_S1x2048 : 0 < S1x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x8192_S8192 : S1x8192.ShapeCasts S8192
  reducesTo_S8192_S_d0 : S8192.ReducesTo [0] S_
  h_S_ : 0 < S_.numel
  bcast_S_S8192 : S_.BroadcastsInDim S8192 (![] : Fin 0 → Fin S8192.rank)
  dot_S1x2048_S512x2048_S1x512_1_1_0_0_n_n_wf : DotDims.WF S1x2048 S512x2048 S1x512 [1] [1] [0] [0] [] []
  hrank0 : 0 < grid0.rank
  k0_mult1_dvd : 2048 ∣ k0_mult1.toNat
  k0_off1_inb : ∀ (r : Fin 4), ∀ a, (k0_off1 (BitVec.ofNat 32 r.val)) a + S512x2048.size a ≤ S512x8192.size a
  k0_off2_inb : ∀ (r : Fin 4), ∀ a, (k0_off2 (BitVec.ofNat 32 r.val)) a + S1x2048.size a ≤ S1x8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S8192x8192.size a
  hwx0_1 : ∀ i : grid0.Coords, EltTy.bits .f32 = 32 ∨ (Rect.block (s := S8192x8192) S512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x8192.size a
  hwx0_7 : ∀ i : grid0.Coords, EltTy.bits .f32 = 32 ∨ (Rect.block (s := S1x8192) S1x512.size (cc0_transform_7 i) (hinb0_7 i)).WholeWords (EltTy.packing .f32)

variable [Facts₀]

def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf

abbrev win0_0 : Pipeline.Window sig grid0 :=
  Pipeline.Window.ofSpec (Memref.whole main_arg0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S1x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S8192x8192, .f32⟩
  | .hbm, ⟨9, _⟩ => ⟨S8192x8192, .f32⟩
  | .hbm, ⟨10, _⟩ => ⟨S1x8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .i1⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S8192x8192_S8192x8192_1_0 : S8192x8192.Transposes [1, 0] S8192x8192
  shapeCasts_S1x8192_S8192 : S1x8192.ShapeCasts S8192
  reducesTo_S8192_S_d0 : S8192.ReducesTo [0] S_
  h_S_ : 0 < S_.numel
  bcast_S_S8192 : S_.BroadcastsInDim S8192 (![] : Fin 0 → Fin S8192.rank)
  dot_S1x8192_S8192x8192_S1x8192_1_0_0_1_n_n_wf : DotDims.WF S1x8192 S8192x8192 S1x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.Spec.lean ====
/-
  What both programs compute, at the ideal instance (floats are extended reals, operations exact).

  One step of a layer of thresholded spiking neurons, 8192 inputs and 8192 outputs:

    weight    w(j,k) = 1 if state(j,k) > 50 else 0                       (`wgt`)
    current   I(j)   = sum over k of x(k) * w(j,k)                        (`current`)
    spike     s(j)   = 1 if (v(j) + I(j)) + noise(j) >= th(j) else 0      (`spike`)
    threshold th'(j) = min(5, max(0.2, th(j) + (s(j) - 0.1) * 0.01))      (`thresh`)
    membrane  v'(j)  = ((v(j) - (0 + sum of all s) * 0.5) + I(j)) * (1 - s(j)) * 0.5   (`membrane`)

  The float constants are kept as their binary words (both programs carry the same words, so they are never
  evaluated). The comparison's truth value is turned into a float by reading the bit unsigned. Nothing here
  depends on either program's text: the functions are stated over plain arrays of the literal shapes.
-/
import Idealize.ShloMosaic.PureOps.Ideal
import Idealize.ShloMosaic.Lib.ValueIdx

noncomputable section

namespace Cert.Spec

open Idealize.ShloMosaic Idealize.ShloMosaic.ValueIdx

/-- A row vector [1, 8192], the state matrix [8192, 8192], a flat vector [8192], a scalar. -/
abbrev Row : Shape := ⟨2, ![1, 8192]⟩
abbrev Mat : Shape := ⟨2, ![8192, 8192]⟩
abbrev Flat : Shape := ⟨1, ![8192]⟩
abbrev Scal : Shape := ⟨0, ![]⟩

/-- The weight of a synapse state: 1 when the state exceeds 50, else 0. -/
def wgt (s : Ideal .f32) : Ideal .f32 :=
  FloatOps.uitofp (F := Ideal) .f32 (FloatOps.cmpf (F := Ideal) .ogt s (Ideal.ofBits .f32 0x42480000#32))

/-- Neuron `j`'s input current: the input row against row `j` of the weights. -/
def current (x : Row.Idx → Ideal .f32) (w : Mat.Idx → Ideal .f32) (j : Fin 8192) : Ideal .f32 :=
  ∑ k : Fin 8192, x (ix2 (0 : Fin 1) k) * wgt (w (ix2 j k))

/-- The spike: 1 when membrane potential plus current plus noise reaches the threshold, else 0. -/
def spike (cur vm nz vt : Ideal .f32) : Ideal .f32 :=
  FloatOps.uitofp (F := Ideal) .f32 (FloatOps.cmpf (F := Ideal) .oge ((vm + cur) + nz) vt)

/-- The adapted threshold, clipped to [0.2, 5]. -/
def thresh (spk vt : Ideal .f32) : Ideal .f32 :=
  min (Ideal.ofBits .f32 0x40A00000#32)
    (max (Ideal.ofBits .f32 0x3E4CCCCD#32) (vt + (spk - Ideal.ofBits .f32 0x3DCCCCCD#32) * Ideal.ofBits .f32 0x3C23D70A#32))

/-! ## As whole flat arrays of the five arguments -/

def currentV (x : Row.Idx → Ideal .f32) (w : Mat.Idx → Ideal .f32) : FVec Ideal Flat .f32 :=
  fun i => current x w (i 0)

def spikeV (x : Row.Idx → Ideal .f32) (w : Mat.Idx → Ideal .f32) (vm vt nz : Flat.Idx → Ideal .f32) : FVec Ideal Flat .f32 :=
  fun i => spike (current x w (i 0)) (vm i) (nz i) (vt i)

def threshV (x : Row.Idx → Ideal .f32) (w : Mat.Idx → Ideal .f32) (vm vt nz : Flat.Idx → Ideal .f32) : FVec Ideal Flat .f32 :=
  fun i => thresh (spikeV x w vm vt nz i) (vt i)

/-- The new membrane potential from the spikes, the currents and the old potential: global inhibition by half the
    number of spikes, the current added, reset where the neuron spiked, halved. Both programs end with these same
    whole-array operations, so it is kept as one function and never opened. (The shape facts are arguments: any
    proofs of them give the same function.) -/
def membrane (hb : Scal.BroadcastsInDim Flat (![] : Fin 0 → Fin Flat.rank)) (hr : Flat.ReducesTo [0] Scal) (hs : 0 < Scal.numel)
    (spk cur vm : FVec Ideal Flat .f32) : FVec Ideal Flat .f32 :=
  mulf (mulf (addf (subf vm (broadcastInDim Flat ![] hb
      (mulf (Host.reduceAdd spk (constant (F := Ideal) Scal .f32 0x00000000#32) hr hs) (constant (F := Ideal) Scal .f32 0x3F000000#32)))) cur)
    (subf (broadcastInDim Flat ![] hb (constant (F := Ideal) Scal .f32 0x3F800000#32)) spk))
    (broadcastInDim Flat ![] hb (constant (F := Ideal) Scal .f32 0x3F000000#32))

end Cert.Spec

end
-- ==== Proof.LibSumChunks.lean ====
/-
  Sums over a range of length n * m taken chunk by chunk.

  In any commutative additive monoid, a sum over `Fin N` with `N = n * m` is the sum over the `n` consecutive
  chunks of length `m`: position `m * c + k` is entry `k` of chunk `c`. This is the re-association that turns
  a contraction computed as a few partial contractions over consecutive slices of the contracted axis, added up
  in order, into the one contraction over the whole axis. Only associativity and commutativity of `+` are used,
  so it holds in the extended reals with no finiteness assumption.
-/
import Mathlib.Algebra.BigOperators.Fin
import Mathlib.Logic.Equiv.Fin.Basic

namespace LibSumChunks

open Finset

/-- Entry `k` of chunk `c` sits at position `m * c + k`, inside the range. -/
theorem chunk_lt {N n m : ℕ} (h : N = n * m) (c : Fin n) (k : Fin m) : m * c.val + k.val < N := by
  subst h
  calc m * c.val + k.val < m * c.val + m := Nat.add_lt_add_left k.isLt _
    _ = m * (c.val + 1) := (Nat.mul_succ m c.val).symm
    _ ≤ m * n := Nat.mul_le_mul_left m c.isLt
    _ = n * m := Nat.mul_comm m n

/-- A sum over `Fin N`, `N = n * m`, is the sum over the `n` chunks of the sums over each chunk's `m` entries. -/
theorem sum_chunks {M : Type*} [AddCommMonoid M] {N : ℕ} (n m : ℕ) (h : N = n * m) (f : Fin N → M) :
    ∑ i : Fin N, f i = ∑ c : Fin n, ∑ k : Fin m, f ⟨m * c.val + k.val, chunk_lt h c k⟩ := by
  subst h
  rw [← (finProdFinEquiv (m := n) (n := m)).sum_comp, Fintype.sum_prod_type]
  refine Finset.sum_congr rfl fun c _ => Finset.sum_congr rfl fun k _ => congrArg f (Fin.ext ?_)
  show (k.val + m * c.val : ℕ) = m * c.val + k.val
  exact Nat.add_comm _ _

/-- Four chunks, written out in the order a left-to-right accumulation adds them, starting from zero. -/
theorem sum_four_chunks {M : Type*} [AddCommMonoid M] {N : ℕ} (m : ℕ) (h : N = 4 * m) (f : Fin N → M) :
    ∑ i : Fin N, f i
      = (((0 + ∑ k : Fin m, f ⟨m * 0 + k.val, chunk_lt h 0 k⟩) + ∑ k : Fin m, f ⟨m * 1 + k.val, chunk_lt h 1 k⟩)
          + ∑ k : Fin m, f ⟨m * 2 + k.val, chunk_lt h 2 k⟩) + ∑ k : Fin m, f ⟨m * 3 + k.val, chunk_lt h 3 k⟩ := by
  rw [sum_chunks 4 m h f, Fin.sum_univ_four, zero_add]
  rfl

end LibSumChunks
-- ==== Proof.LibBitCast.lean ====
/-
  A comparison's truth value as a float, by either spelling.

  A float comparison yields a one-bit word. One program turns it into a float by reading the bit as an unsigned
  integer (`uitofp`); another first widens the bit with zeros to 32 bits and reads the result as a SIGNED integer
  (`extui` then `sitofp`). A zero-extended bit is 0 or 1, far below 2^31, so its signed and unsigned readings
  agree, and at the ideal instance both conversions are the exact value of the integer: the two spellings are
  one function, for any float format and any shape.
-/
import Idealize.ShloMosaic.PureOps.Ideal
import Idealize.ShloMosaic.Lib.ValueIdx

noncomputable section

namespace LibBitCast

open Idealize.ShloMosaic

/-- The zero-extension of a bit to 32 bits reads the same signed as the bit reads unsigned. -/
theorem bit_toInt_eq_toNat : ∀ b : BitVec 1, (b.setWidth 32).toInt = (b.toNat : Int) := by decide

/-- One element: `sitofp` of the widened bit is `uitofp` of the bit, at the ideal instance. -/
theorem sitofp_extui_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [bit_toInt_eq_toNat b, Int.cast_natCast]

/-- Whole vectors of any shape: widening then reading signed is reading unsigned. -/
theorem sitofp_extui_eq_uitofp {s : Shape} (φ : FTy) (v : IVec s 1) (h : 1 < 32) :
    (sitofp φ (extui 32 v h) : FVec Ideal s φ) = uitofp φ v :=
  funext fun i => sitofp_extui_bit φ (v i)

end LibBitCast

end
-- ==== Proof.PointValue.lean ====
/-
  What one grid point of the kernel leaves in its three output blocks, at the ideal instance.

  A grid point holds the whole input row `x` [1, 8192], a block of 512 rows of the synapse states [512, 8192],
  and 512 entries each of the membrane potential, the threshold and the noise. It takes the contraction of `x`
  with the thresholded states in four slices of 2048 columns, each slice a matrix product into a zero
  accumulator, and adds the four partial results in order starting from zero. Over the extended reals the order
  and grouping of a sum do not matter, so entry `l` of the current block is the ONE contraction over all 8192
  columns (`blkCur`). The spike block and the threshold block are then pointwise functions of that current and of
  the point's other inputs (`Spec.spike`, `Spec.thresh`); the kernel widens the comparison bit and reads it as a
  signed integer, which is the bit read unsigned.
-/
import proofs.«142710_j53111565582354_2_alg».proof.Proof.Gen.KernelIdeal.Frame
import proofs.«142710_j53111565582354_2_alg».proof.Proof.Spec
import proofs.«142710_j53111565582354_2_alg».proof.Proof.LibSumChunks
import proofs.«142710_j53111565582354_2_alg».proof.Proof.LibBitCast
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.PointValue

open Idealize.ShloMosaic Idealize.ShloMosaic.TcCoe Idealize.ShloMosaic.Tactic Idealize.SL.Sem
open Idealize.ShloMosaic.ValueIdx
open Cert.KernelIdeal Cert.KernelIdeal.Gen

theorem hz : (![0, 0] : Fin 2 → Nat) = fun _ => 0 := funext fun a => by fin_cases a <;> rfl

/-! ## One slice's matrix product is a sum over the slice's columns -/

theorem lhs0 (j : S1x512.Idx) (q : dot_S1x2048_S512x2048_S1x512_1_1_0_0_n_n.contr.Idx) : (dot_S1x2048_S512x2048_S1x512_1_1_0_0_n_n.lhsIdx j q 0).val = (j 0).val := by
  unfold DotDims.lhsIdx
  rw [dif_neg (show ¬(0 : Fin S1x2048.rank) ∈ dot_S1x2048_S512x2048_S1x512_1_1_0_0_n_n.lhsBatch by decide), dif_pos (show (0 : Fin S1x2048.rank) ∈ dot_S1x2048_S512x2048_S1x512_1_1_0_0_n_n.lhsNonContracting by decide)]
  rfl
theorem lhs1 (j : S1x512.Idx) (q : dot_S1x2048_S512x2048_S1x512_1_1_0_0_n_n.contr.Idx) : (dot_S1x2048_S512x2048_S1x512_1_1_0_0_n_n.lhsIdx j q 1).val = (q ⟨0, by decide⟩).val :=
  dot_S1x2048_S512x2048_S1x512_1_1_0_0_n_n.lhsIdx_val_of_single rfl j q
theorem rhs0 (j : S1x512.Idx) (q : dot_S1x2048_S512x2048_S1x512_1_1_0_0_n_n.contr.Idx) : (dot_S1x2048_S512x2048_S1x512_1_1_0_0_n_n.rhsIdx j q 0).val = (j 1).val := by
  unfold DotDims.rhsIdx
  rw [dif_neg (show ¬(0 : Fin S512x2048.rank) ∈ dot_S1x2048_S512x2048_S1x512_1_1_0_0_n_n.rhsBatch by decide), dif_pos (show (0 : Fin S512x2048.rank) ∈ dot_S1x2048_S512x2048_S1x512_1_1_0_0_n_n.rhsNonContracting by decide)]
  rfl
theorem rhs1 (j : S1x512.Idx) (q : dot_S1x2048_S512x2048_S1x512_1_1_0_0_n_n.contr.Idx) : (dot_S1x2048_S512x2048_S1x512_1_1_0_0_n_n.rhsIdx j q 1).val = (q ⟨0, by decide⟩).val :=
  dot_S1x2048_S512x2048_S1x512_1_1_0_0_n_n.rhsIdx_val_of_single rfl j q

/-- The slice's product into the zero accumulator: entry `l` is the sum over the slice's 2048 columns of the
    row's entry times the weight block's entry in row `l`. -/
def part (x : FVec Ideal S1x2048 .bf16) (w : FVec Ideal S512x2048 .bf16) : FVec Ideal S1x512 .f32 :=
  matmul dot_S1x2048_S512x2048_S1x512_1_1_0_0_n_n none x w (constant (F := Ideal) S1x512 .f32 0x00000000#32)

theorem part_apply (x : FVec Ideal S1x2048 .bf16) (w : FVec Ideal S512x2048 .bf16) (l : Fin 512) :
    part x w (ix2 (0 : Fin 1) l) = ∑ k : Fin 2048, x (ix2 (0 : Fin 1) k) * w (ix2 l k) := by
  unfold part
  simp only [matmul]
  rw [Ideal.matmul_constant_zero_apply, ← Equiv.sum_comp (ValueIdx.contrEquiv1 dot_S1x2048_S512x2048_S1x512_1_1_0_0_n_n 2048 rfl rfl).symm]
  refine Finset.sum_congr rfl fun k _ => ?_
  have hk := ValueIdx.contrEquiv1_symm_val dot_S1x2048_S512x2048_S1x512_1_1_0_0_n_n 2048 rfl rfl k
  have el : dot_S1x2048_S512x2048_S1x512_1_1_0_0_n_n.lhsIdx (ix2 (0 : Fin 1) l) ((ValueIdx.contrEquiv1 dot_S1x2048_S512x2048_S1x512_1_1_0_0_n_n 2048 rfl rfl).symm k) = ix2 (0 : Fin 1) k := funext fun a => Fin.ext (by
    match a with
    | ⟨0, _⟩ => exact lhs0 _ _
    | ⟨1, _⟩ => exact (lhs1 _ _).trans hk)
  have er : dot_S1x2048_S512x2048_S1x512_1_1_0_0_n_n.rhsIdx (ix2 (0 : Fin 1) l) ((ValueIdx.contrEquiv1 dot_S1x2048_S512x2048_S1x512_1_1_0_0_n_n 2048 rfl rfl).symm k) = ix2 l k := funext fun a => Fin.ext (by
    match a with
    | ⟨0, _⟩ => exact rhs0 _ _
    | ⟨1, _⟩ => exact (rhs1 _ _).trans hk)
  rw [el, er]

/-- With the operands as the body forms them (the row slice as loaded, the state slice thresholded): the weights
    are `Spec.wgt` of the states. -/
theorem part_pay_apply (xs : Vec Ideal S1x2048 .f32) (ws : Vec Ideal S512x2048 .f32) (l : Fin 512) :
    part (k0_pay3 xs) (k0_pay2 ws) (ix2 (0 : Fin 1) l) = ∑ k : Fin 2048, xs (ix2 (0 : Fin 1) k) * Spec.wgt (ws (ix2 l k)) :=
  (part_apply _ _ l).trans (Finset.sum_congr rfl fun k _ =>
    congrArg (xs (ix2 (0 : Fin 1) k) * ·) (LibBitCast.sitofp_extui_bit .f32 _))

/-! ## The payloads, in that vocabulary -/

theorem pay1_eq (v4 : Vec Ideal S512x2048 .f32) (v11 : Vec Ideal S1x2048 .f32) (v18 : Vec Ideal S512x2048 .f32) (v25 : Vec Ideal S1x2048 .f32) :
    k0_pay1 v4 v11 v18 v25
      = addf (addf (broadcast S1x512 (Scalar.ofBits (F := Ideal) .f32 0x00000000#32)) (part (k0_pay3 v11) (k0_pay2 v4))) (part (k0_pay3 v25) (k0_pay2 v18)) := rfl

theorem pay4_eq (v28 : FVec Ideal S1x512 .f32) (v37 : FVec Ideal S512x2048 .bf16) (v40 : FVec Ideal S1x2048 .bf16) (v46 : Vec Ideal S512x2048 .f32) (v53 : Vec Ideal S1x2048 .f32) :
    k0_pay4 v28 v37 v40 v46 v53 = addf (addf v28 (part v40 v37)) (part (k0_pay3 v53) (k0_pay2 v46)) := rfl

/-- The accumulated current at entry `l`: zero plus the four slices' sums, in order. -/
theorem cur_chain (v4 v18 v32 v46 : Vec Ideal S512x2048 .f32) (v11 v25 v39 v53 : Vec Ideal S1x2048 .f32) (l : Fin 512) :
    k0_pay4 (k0_pay1 v4 v11 v18 v25) (k0_pay2 v32) (k0_pay3 v39) v46 v53 (ix2 (0 : Fin 1) l)
      = (((0 + ∑ k : Fin 2048, v11 (ix2 (0 : Fin 1) k) * Spec.wgt (v4 (ix2 l k)))
            + ∑ k : Fin 2048, v25 (ix2 (0 : Fin 1) k) * Spec.wgt (v18 (ix2 l k)))
          + ∑ k : Fin 2048, v39 (ix2 (0 : Fin 1) k) * Spec.wgt (v32 (ix2 l k)))
        + ∑ k : Fin 2048, v53 (ix2 (0 : Fin 1) k) * Spec.wgt (v46 (ix2 l k)) := by
  rw [pay4_eq, pay1_eq]
  show (((Ideal.ofBits .f32 0x00000000#32 + part (k0_pay3 v11) (k0_pay2 v4) (ix2 (0 : Fin 1) l))
      + part (k0_pay3 v25) (k0_pay2 v18) (ix2 (0 : Fin 1) l)) + part (k0_pay3 v39) (k0_pay2 v32) (ix2 (0 : Fin 1) l))
      + part (k0_pay3 v53) (k0_pay2 v46) (ix2 (0 : Fin 1) l) = _
  rw [Ideal.ofBits_zero_f32, part_pay_apply, part_pay_apply, part_pay_apply, part_pay_apply]

/-- The spike payload is `Spec.spike` of the current payload and the loaded potential, noise and threshold. -/
theorem pay5_apply (v28 : FVec Ideal S1x512 .f32) (v37 : FVec Ideal S512x2048 .bf16) (v40 : FVec Ideal S1x2048 .bf16) (v46 : Vec Ideal S512x2048 .f32) (v53 : Vec Ideal S1x2048 .f32)
    (v57 v60 v63 : Vec Ideal S1x512 .f32) (y : S1x512.Idx) :
    k0_pay5 v28 v37 v40 v46 v53 v57 v60 v63 y = Spec.spike (k0_pay4 v28 v37 v40 v46 v53 y) (v57 y) (v60 y) (v63 y) := by
  unfold k0_pay5 Spec.spike
  simp only [shapeCast_self]
  exact LibBitCast.sitofp_extui_bit .f32 _

/-- The threshold payload is `Spec.thresh` of the spike payload and the loaded threshold. -/
theorem pay6_apply (v28 : FVec Ideal S1x512 .f32) (v37 : FVec Ideal S512x2048 .bf16) (v40 : FVec Ideal S1x2048 .bf16) (v46 : Vec Ideal S512x2048 .f32) (v53 : Vec Ideal S1x2048 .f32)
    (v57 v60 v63 v68 : Vec Ideal S1x512 .f32) (y : S1x512.Idx) :
    k0_pay6 v28 v37 v40 v46 v53 v57 v60 v63 v68 y = Spec.thresh (k0_pay5 v28 v37 v40 v46 v53 v57 v60 v63 y) (v68 y) := by
  unfold k0_pay6 Spec.thresh
  simp only [shapeCast_self]
  rfl

/-! ## A slice load reads the buffer at the shifted column -/

/-- A load through a unit-stride rectangle of a rank-2 buffer reads the buffer at the offset plus the local
    coordinate, axis by axis. -/
theorem ld2_apply {Val : EltTy → Type} {e : EltTy} {n0 n1 b0 b1 : Nat} (X : (⟨2, ![n0, n1]⟩ : Shape).Idx → Val e)
    (off : Fin 2 → Nat) (inb : ∀ a, off a + (![b0, b1] : Fin 2 → Nat) a ≤ (⟨2, ![n0, n1]⟩ : Shape).size a)
    (p : Fin b0) (q : Fin b1) (P : Fin n0) (Q : Fin n1) (hP : P.val = off 0 + p.val) (hQ : Q.val = off 1 + q.val) :
    View.ld X (Rect.unit (s := ⟨2, ![n0, n1]⟩) off ![b0, b1] inb) (ix2 p q) = X (ix2 P Q) := by
  show X _ = X _
  congr 1
  funext a
  apply Fin.ext
  match a with
  | ⟨0, _⟩ => show off 0 + 1 * p.val = P.val; omega
  | ⟨1, _⟩ => show off 1 + 1 * q.val = Q.val; omega

/-- Entry `l` of the point's current: the whole row against row `l` of the thresholded state block. -/
def blkCur (x0 : Vec Ideal S1x8192 .f32) (x1 : Vec Ideal S512x8192 .f32) (l : Fin 512) : Ideal .f32 :=
  ∑ k : Fin 8192, x0 (ix2 (0 : Fin 1) k) * Spec.wgt (x1 (ix2 l k))

/-- The four slices, loaded at columns 0, 2048, 4096 and 6144 and accumulated in order, give the whole
    contraction: a sum over 8192 columns taken as four consecutive chunks of 2048. -/
theorem cur_blk (x0 : Vec Ideal S1x8192 .f32) (x1 : Vec Ideal S512x8192 .f32) (l : Fin 512)
    (i0 : ∀ a, (![0, 0] : Fin 2 → Nat) a + S512x2048.size a ≤ S512x8192.size a) (j0 : ∀ a, (![0, 0] : Fin 2 → Nat) a + S1x2048.size a ≤ S1x8192.size a)
    (i1 : ∀ a, (![0, 2048] : Fin 2 → Nat) a + S512x2048.size a ≤ S512x8192.size a) (j1 : ∀ a, (![0, 2048] : Fin 2 → Nat) a + S1x2048.size a ≤ S1x8192.size a)
    (i2 : ∀ a, (![0, 4096] : Fin 2 → Nat) a + S512x2048.size a ≤ S512x8192.size a) (j2 : ∀ a, (![0, 4096] : Fin 2 → Nat) a + S1x2048.size a ≤ S1x8192.size a)
    (i3 : ∀ a, (![0, 6144] : Fin 2 → Nat) a + S512x2048.size a ≤ S512x8192.size a) (j3 : ∀ a, (![0, 6144] : Fin 2 → Nat) a + S1x2048.size a ≤ S1x8192.size a) :
    k0_pay4 (k0_pay1 (View.ld x1 (Rect.unit ![0, 0] S512x2048.size i0)) (View.ld x0 (Rect.unit ![0, 0] S1x2048.size j0))
          (View.ld x1 (Rect.unit ![0, 2048] S512x2048.size i1)) (View.ld x0 (Rect.unit ![0, 2048] S1x2048.size j1)))
        (k0_pay2 (View.ld x1 (Rect.unit ![0, 4096] S512x2048.size i2))) (k0_pay3 (View.ld x0 (Rect.unit ![0, 4096] S1x2048.size j2)))
        (View.ld x1 (Rect.unit ![0, 6144] S512x2048.size i3)) (View.ld x0 (Rect.unit ![0, 6144] S1x2048.size j3)) (ix2 (0 : Fin 1) l)
      = blkCur x0 x1 l := by
  rw [cur_chain]
  unfold blkCur
  rw [LibSumChunks.sum_four_chunks 2048 rfl]
  refine congrArg₂ (· + ·) (congrArg₂ (· + ·) (congrArg₂ (· + ·) (congrArg (0 + ·) ?_) ?_) ?_) ?_
  · exact Finset.sum_congr rfl fun k _ => congrArg₂ (· * ·)
      (ld2_apply x0 ![0, 0] j0 (0 : Fin 1) k (0 : Fin 1) _ rfl (by show 2048 * 0 + k.val = 0 + k.val; omega))
      (congrArg Spec.wgt (ld2_apply x1 ![0, 0] i0 l k l _ (by show l.val = 0 + l.val; omega) (by show 2048 * 0 + k.val = 0 + k.val; omega)))
  · exact Finset.sum_congr rfl fun k _ => congrArg₂ (· * ·)
      (ld2_apply x0 ![0, 2048] j1 (0 : Fin 1) k (0 : Fin 1) _ rfl (by show 2048 * 1 + k.val = 2048 + k.val; omega))
      (congrArg Spec.wgt (ld2_apply x1 ![0, 2048] i1 l k l _ (by show l.val = 0 + l.val; omega) (by show 2048 * 1 + k.val = 2048 + k.val; omega)))
  · exact Finset.sum_congr rfl fun k _ => congrArg₂ (· * ·)
      (ld2_apply x0 ![0, 4096] j2 (0 : Fin 1) k (0 : Fin 1) _ rfl (by show 2048 * 2 + k.val = 4096 + k.val; omega))
      (congrArg Spec.wgt (ld2_apply x1 ![0, 4096] i2 l k l _ (by show l.val = 0 + l.val; omega) (by show 2048 * 2 + k.val = 4096 + k.val; omega)))
  · exact Finset.sum_congr rfl fun k _ => congrArg₂ (· * ·)
      (ld2_apply x0 ![0, 6144] j3 (0 : Fin 1) k (0 : Fin 1) _ rfl (by show 2048 * 3 + k.val = 6144 + k.val; omega))
      (congrArg Spec.wgt (ld2_apply x1 ![0, 6144] i3 l k l _ (by show l.val = 0 + l.val; omega) (by show 2048 * 3 + k.val = 6144 + k.val; omega)))

/-! ## The three output blocks of a point, entry by entry

Each output's staging buffer ends with one store that covers it, so what it holds is that store's payload;
the payload's loads read the point's input blocks (the whole small blocks as they are, the row and the state
block slice by slice). -/

/-- The current block: entry `l` is the whole contraction for row `l` of the state block. -/
theorem out7_at (c : Dev nD) (i : grid0.Coords) (a1 : Memref sig .tc .vmem S1x8192 .f32) (h1 : a1.IsWhole) (a2 : Memref sig .tc .vmem S512x8192 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole)
    (x0 : Vec Ideal S1x8192 .f32) (x1 : Vec Ideal S512x8192 .f32) (x2 : Vec Ideal S1x512 .f32) (x3 : Vec Ideal S1x512 .f32) (x4 : Vec Ideal S1x512 .f32) (l : Fin 512) :
    out0_A_7 (F := Ideal) c i a1 h1 a2 h2 a3 h3 a4 h4 a5 h5 a6 h6 a7 h7 a8 h8 x0 x1 x2 x3 x4 (ix2 (0 : Fin 1) l) = blkCur x0 x1 l := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  sl_unfold_words
  rw [View.canon_unit_zero hz]
  simp only [View.readAt_eq_ld, h1.read_unread, h2.read_unread, h3.read_unread, h4.read_unread, h5.read_unread]
  exact cur_blk x0 x1 l _ _ _ _ _ _ _ _

/-- The spike block: entry `l` is the spike of that current with the point's potential, noise and threshold. -/
theorem out5_at (c : Dev nD) (i : grid0.Coords) (a1 : Memref sig .tc .vmem S1x8192 .f32) (h1 : a1.IsWhole) (a2 : Memref sig .tc .vmem S512x8192 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole)
    (x0 : Vec Ideal S1x8192 .f32) (x1 : Vec Ideal S512x8192 .f32) (x2 : Vec Ideal S1x512 .f32) (x3 : Vec Ideal S1x512 .f32) (x4 : Vec Ideal S1x512 .f32) (l : Fin 512) :
    out0_A_5 (F := Ideal) c i a1 h1 a2 h2 a3 h3 a4 h4 a5 h5 a6 h6 a7 h7 a8 h8 x0 x1 x2 x3 x4 (ix2 (0 : Fin 1) l)
      = Spec.spike (blkCur x0 x1 l) (x2 (ix2 (0 : Fin 1) l)) (x4 (ix2 (0 : Fin 1) l)) (x3 (ix2 (0 : Fin 1) l)) := by
  unfold out0_A_5
  rw [View.read_writes_eq_canon _ _ _ (cover0_A_5 c i a1 h1 a2 h2 a3 h3 a4 h4 a5 h5 a6 h6 a7 h7 a8 h8 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S1x512) hz]
  rw [pay5_apply]
  exact congrArg (fun z => Spec.spike z _ _ _) (cur_blk x0 x1 l _ _ _ _ _ _ _ _)

/-- The threshold block: entry `l` is the adapted, clipped threshold from that spike. -/
theorem out6_at (c : Dev nD) (i : grid0.Coords) (a1 : Memref sig .tc .vmem S1x8192 .f32) (h1 : a1.IsWhole) (a2 : Memref sig .tc .vmem S512x8192 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1x512 .f32) (h8 : a8.IsWhole)
    (x0 : Vec Ideal S1x8192 .f32) (x1 : Vec Ideal S512x8192 .f32) (x2 : Vec Ideal S1x512 .f32) (x3 : Vec Ideal S1x512 .f32) (x4 : Vec Ideal S1x512 .f32) (l : Fin 512) :
    out0_A_6 (F := Ideal) c i a1 h1 a2 h2 a3 h3 a4 h4 a5 h5 a6 h6 a7 h7 a8 h8 x0 x1 x2 x3 x4 (ix2 (0 : Fin 1) l)
      = Spec.thresh (Spec.spike (blkCur x0 x1 l) (x2 (ix2 (0 : Fin 1) l)) (x4 (ix2 (0 : Fin 1) l)) (x3 (ix2 (0 : Fin 1) l))) (x3 (ix2 (0 : Fin 1) l)) := by
  unfold out0_A_6
  rw [View.read_writes_eq_canon _ _ _ (cover0_A_6 c i a1 h1 a2 h2 a3 h3 a4 h4 a5 h5 a6 h6 a7 h7 a8 h8 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S1x512) hz]
  rw [pay6_apply, pay5_apply]
  exact congrArg (fun z => Spec.thresh (Spec.spike z _ _ _) _) (cur_blk x0 x1 l _ _ _ _ _ _ _ _)

end Cert.KernelIdeal.PointValue

end
-- ==== Proof.Arrays.lean ====
/-
  From the blocks to the three arrays the kernel's region leaves.

  The grid has 16 points. Point `t` holds the whole input row, rows 512 t … 512 t + 511 of the synapse states,
  and entries 512 t … 512 t + 511 of the potential, the threshold and the noise (each first laid out as a
  [1, 8192] row), and it writes entries 512 t … 512 t + 511 of each of the three [1, 8192] result rows. So entry
  (0, j) of a result row is what point j / 512 computed at its local entry j mod 512, and that is the scalar formula
  of `Spec` at neuron `j` over the argument arrays: the 16 blocks of 512 tile the row.
-/
import proofs.«142710_j53111565582354_2_alg».proof.Proof.PointValue

set_option maxRecDepth 16384

noncomputable section

namespace Cert.KernelIdeal.Arrays

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.PointValue

variable (m : (ℓ : Loc nD τ sig) → Buf (Elt Ideal) ℓ) (ρ : Dev nD → PrngReg)

/-! ## Where the blocks sit -/

/-- The printed index maps, decided once over the 16 points: the row's block never moves; the state block moves
    down the rows; every other block moves along the row. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

theorem t_lt (t : Fin cfg0.N) : t.val < 16 := by
  have h := t.isLt
  have e : cfg0.N = 16 := N_0
  omega

/-- Local entry `l` of point `t`'s blocks is global position `512 t + l`. -/
theorem pos_lt (t : Fin cfg0.N) (l : Fin 512) : 512 * t.val + l.val < 8192 := by
  have := t_lt t; have := l.isLt; omega

/-! ## The arguments as the region finds them -/

/-- The three vector arguments reach the region as [1, 8192] rows: entry (0, j) of the row is entry j. -/
theorem row_of_flat (x : S8192.Idx → Ideal .f32) (j : Fin 8192) :
    shapeCast S1x8192 x shapeCasts_S8192_S1x8192 (ix2 (0 : Fin 1) j) = x (ix1 j) :=
  shapeCast_apply x shapeCasts_S8192_S1x8192 (ix2 (0 : Fin 1) j) (ix1 j)
    (by rewrite [Shape.rowMajor_val_two, Shape.rowMajor_val_one]; show j.val = 0 * 8192 + j.val; omega)

theorem V_v0 (c : Dev nD) : (V m c main_v0 : S1x8192.Idx → Ideal .f32)
    = shapeCast S1x8192 (m ((c : Thread nD τ).loc main_arg2)) shapeCasts_S8192_S1x8192 := by
  show StableHlo.after hostOps0 (fun b => m (c, b)) (Proc.devRef .tc main_v0) = _
  after_results
  rfl
theorem V_v1 (c : Dev nD) : (V m c main_v1 : S1x8192.Idx → Ideal .f32)
    = shapeCast S1x8192 (m ((c : Thread nD τ).loc main_arg3)) shapeCasts_S8192_S1x8192 := by
  show StableHlo.after hostOps0 (fun b => m (c, b)) (Proc.devRef .tc main_v1) = _
  after_results
  rfl
theorem V_v2 (c : Dev nD) : (V m c main_v2 : S1x8192.Idx → Ideal .f32)
    = shapeCast S1x8192 (m ((c : Thread nD τ).loc main_arg4)) shapeCasts_S8192_S1x8192 := by
  show StableHlo.after hostOps0 (fun b => m (c, b)) (Proc.devRef .tc main_v2) = _
  after_results
  rfl

/-! ## The input blocks, entry by entry -/

/-- The row block is the whole input row. -/
theorem blk0_at (c : Dev nD) (t : Fin cfg0.N) (k : Fin 8192) :
    iblk m c 0 t (ix2 (0 : Fin 1) k) = m ((c : Thread nD τ).loc main_arg0) (ix2 (0 : Fin 1) k) := by
  obtain ⟨e00, e01, -⟩ := idx_facts t
  unfold iblk
  rw [View.read_apply]
  show V m c main_arg0 _ = _
  rw [V_main_arg0]
  congr 1
  funext a
  apply Fin.ext
  match a with
  | ⟨0, _⟩ => show win0_0.index t (0 : Fin 2) * 1 + 1 * 0 = 0; rw [e00]
  | ⟨1, _⟩ => show win0_0.index t (1 : Fin 2) * 8192 + 1 * k.val = k.val; rw [e01]; omega

/-- The state block at point `t` is rows 512 t … of the state matrix. -/
theorem blk1_at (c : Dev nD) (t : Fin cfg0.N) (l : Fin 512) (k : Fin 8192) :
    iblk m c 1 t (ix2 l k) = m ((c : Thread nD τ).loc main_arg1) (ix2 (⟨512 * t.val + l.val, pos_lt t l⟩ : Fin 8192) k) := by
  obtain ⟨-, -, e10, e11, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * l.val = 512 * t.val + l.val; rw [e10]; omega
  | ⟨1, _⟩ => show win0_1.index t (1 : Fin 2) * 8192 + 1 * k.val = k.val; rw [e11]; omega

/-- The potential, threshold and noise blocks at point `t` are entries 512 t … of the vector arguments. -/
theorem blk2_at (c : Dev nD) (t : Fin cfg0.N) (l : Fin 512) :
    iblk m c 2 t (ix2 (0 : Fin 1) l) = m ((c : Thread nD τ).loc main_arg2) (ix1 (⟨512 * t.val + l.val, pos_lt t l⟩ : Fin 8192)) := by
  obtain ⟨-, -, -, -, e20, e21, -⟩ := idx_facts t
  unfold iblk
  rw [View.read_apply]
  show V m c main_v0 _ = _
  refine ((congrFun (V_v0 m c) _).trans ?_).trans (row_of_flat (m ((c : Thread nD τ).loc main_arg2)) ⟨512 * t.val + l.val, pos_lt t l⟩)
  congr 1
  funext a
  apply Fin.ext
  match a with
  | ⟨0, _⟩ => show win0_2.index t (0 : Fin 2) * 1 + 1 * 0 = 0; rw [e20]
  | ⟨1, _⟩ => show win0_2.index t (1 : Fin 2) * 512 + 1 * l.val = 512 * t.val + l.val; rw [e21]; omega

theorem blk3_at (c : Dev nD) (t : Fin cfg0.N) (l : Fin 512) :
    iblk m c 3 t (ix2 (0 : Fin 1) l) = m ((c : Thread nD τ).loc main_arg3) (ix1 (⟨512 * t.val + l.val, pos_lt t l⟩ : Fin 8192)) := by
  obtain ⟨-, -, -, -, -, -, e30, e31, -⟩ := idx_facts t
  unfold iblk
  rw [View.read_apply]
  show V m c main_v1 _ = _
  refine ((congrFun (V_v1 m c) _).trans ?_).trans (row_of_flat (m ((c : Thread nD τ).loc main_arg3)) ⟨512 * t.val + l.val, pos_lt t l⟩)
  congr 1
  funext a
  apply Fin.ext
  match a with
  | ⟨0, _⟩ => show win0_3.index t (0 : Fin 2) * 1 + 1 * 0 = 0; rw [e30]
  | ⟨1, _⟩ => show win0_3.index t (1 : Fin 2) * 512 + 1 * l.val = 512 * t.val + l.val; rw [e31]; omega

theorem blk4_at (c : Dev nD) (t : Fin cfg0.N) (l : Fin 512) :
    iblk m c 4 t (ix2 (0 : Fin 1) l) = m ((c : Thread nD τ).loc main_arg4) (ix1 (⟨512 * t.val + l.val, pos_lt t l⟩ : Fin 8192)) := by
  obtain ⟨-, -, -, -, -, -, -, -, e40, e41, -⟩ := idx_facts t
  unfold iblk
  rw [View.read_apply]
  show V m c main_v2 _ = _
  refine ((congrFun (V_v2 m c) _).trans ?_).trans (row_of_flat (m ((c : Thread nD τ).loc main_arg4)) ⟨512 * t.val + l.val, pos_lt t l⟩)
  congr 1
  funext a
  apply Fin.ext
  match a with
  | ⟨0, _⟩ => show win0_4.index t (0 : Fin 2) * 1 + 1 * 0 = 0; rw [e40]
  | ⟨1, _⟩ => show win0_4.index t (1 : Fin 2) * 512 + 1 * l.val = 512 * t.val + l.val; rw [e41]; omega

/-! ## The three result rows -/

/-- A flat vector laid out as a [1, 8192] row. -/
def rowOf (f : S8192.Idx → Ideal .f32) : S1x8192.Idx → Ideal .f32 := fun i => f (ix1 (i 1))

/-- The five argument arrays on core `c`. -/
abbrev A0 (c : Dev nD) : S1x8192.Idx → Ideal .f32 := m ((c : Thread nD τ).loc main_arg0)
abbrev A1 (c : Dev nD) : S8192x8192.Idx → Ideal .f32 := m ((c : Thread nD τ).loc main_arg1)
abbrev A2 (c : Dev nD) : S8192.Idx → Ideal .f32 := m ((c : Thread nD τ).loc main_arg2)
abbrev A3 (c : Dev nD) : S8192.Idx → Ideal .f32 := m ((c : Thread nD τ).loc main_arg3)
abbrev A4 (c : Dev nD) : S8192.Idx → Ideal .f32 := m ((c : Thread nD τ).loc main_arg4)

/-- The spikes, the adapted thresholds and the currents of all 8192 neurons, each as a row. -/
def spkRow (c : Dev nD) : S1x8192.Idx → Ideal .f32 := rowOf (Spec.spikeV (A0 m c) (A1 m c) (A2 m c) (A3 m c) (A4 m c))
def thrRow (c : Dev nD) : S1x8192.Idx → Ideal .f32 := rowOf (Spec.threshV (A0 m c) (A1 m c) (A2 m c) (A3 m c) (A4 m c))
def curRow (c : Dev nD) : S1x8192.Idx → Ideal .f32 := rowOf (Spec.currentV (A0 m c) (A1 m c))

/-- Point `t`'s current at local entry `l` is neuron `512 t + l`'s current: the point's row block is the whole
    input row and its state block holds that neuron's row of states. -/
theorem cur_pt (c : Dev nD) (t : Fin cfg0.N) (l : Fin 512) :
    blkCur (iblk m c 0 t) (iblk m c 1 t) l = Spec.current (A0 m c) (A1 m c) (⟨512 * t.val + l.val, pos_lt t l⟩ : Fin 8192) := by
  unfold blkCur Spec.current
  exact Finset.sum_congr rfl fun k _ => by rw [blk0_at, blk1_at]

/-- WHAT POINT `t` WRITES BACK to the current row is its block of `curRow`. -/
theorem flushed7_eq (c : Dev nD) (t : Fin cfg0.N) :
    (dats m 0 c).flushed 7 t = ((cfg0.win 7).blk t).view.read (Elt Ideal) (curRow m c) := by
  obtain ⟨-, -, -, -, -, -, -, -, -, -, -, -, -, -, e70, e71⟩ := idx_facts t
  show (cfg0.win 7).cut (grid0.coords t) ((dats m 0 c).after 7 t) = _
  rw [after0_7]
  unfold outsAt0
  dsimp only
  funext y
  obtain ⟨l, rfl⟩ : ∃ l : Fin 512, y = ix2 (0 : Fin 1) l :=
    ⟨y 1, (eq_ix2 y).trans (congrArg (fun p => ix2 p (y 1)) (Fin.fin_one_eq_zero (y 0)))⟩
  refine (out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) l).trans ?_
  have hcol : ((((cfg0.win 7).blk t).view.emb (ix2 (0 : Fin 1) l) : S1x8192.Idx) 1 : Fin 8192) = ⟨512 * t.val + l.val, pos_lt t l⟩ :=
    Fin.ext (by show win0_7.index t (1 : Fin 2) * 512 + 1 * l.val = 512 * t.val + l.val; rw [e71]; omega)
  show _ = Spec.current (A0 m c) (A1 m c) ((((cfg0.win 7).blk t).view.emb (ix2 (0 : Fin 1) l) : S1x8192.Idx) 1 : Fin 8192)
  rw [hcol]
  exact cur_pt m c t l

/-- WHAT POINT `t` WRITES BACK to the spike row is its block of `spkRow`. -/
theorem flushed5_eq (c : Dev nD) (t : Fin cfg0.N) :
    (dats m 0 c).flushed 5 t = ((cfg0.win 5).blk t).view.read (Elt Ideal) (spkRow m c) := by
  obtain ⟨-, -, -, -, -, -, -, -, -, -, e50, e51, -⟩ := idx_facts t
  show (cfg0.win 5).cut (grid0.coords t) ((dats m 0 c).after 5 t) = _
  rw [after0_5]
  unfold outsAt0
  dsimp only
  funext y
  obtain ⟨l, rfl⟩ : ∃ l : Fin 512, y = ix2 (0 : Fin 1) l :=
    ⟨y 1, (eq_ix2 y).trans (congrArg (fun p => ix2 p (y 1)) (Fin.fin_one_eq_zero (y 0)))⟩
  refine (out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) l).trans ?_
  have hcol : ((((cfg0.win 5).blk t).view.emb (ix2 (0 : Fin 1) l) : S1x8192.Idx) 1 : Fin 8192) = ⟨512 * t.val + l.val, pos_lt t l⟩ :=
    Fin.ext (by show win0_5.index t (1 : Fin 2) * 512 + 1 * l.val = 512 * t.val + l.val; rw [e51]; omega)
  show _ = Spec.spike (Spec.current (A0 m c) (A1 m c) ((((cfg0.win 5).blk t).view.emb (ix2 (0 : Fin 1) l) : S1x8192.Idx) 1 : Fin 8192))
      (A2 m c (ix1 ((((cfg0.win 5).blk t).view.emb (ix2 (0 : Fin 1) l) : S1x8192.Idx) 1 : Fin 8192)))
      (A4 m c (ix1 ((((cfg0.win 5).blk t).view.emb (ix2 (0 : Fin 1) l) : S1x8192.Idx) 1 : Fin 8192)))
      (A3 m c (ix1 ((((cfg0.win 5).blk t).view.emb (ix2 (0 : Fin 1) l) : S1x8192.Idx) 1 : Fin 8192)))
  rw [hcol, cur_pt, blk2_at, blk3_at, blk4_at]
  rfl

/-- WHAT POINT `t` WRITES BACK to the threshold row is its block of `thrRow`. -/
theorem flushed6_eq (c : Dev nD) (t : Fin cfg0.N) :
    (dats m 0 c).flushed 6 t = ((cfg0.win 6).blk t).view.read (Elt Ideal) (thrRow m c) := by
  obtain ⟨-, -, -, -, -, -, -, -, -, -, -, -, e60, e61, -⟩ := idx_facts t
  show (cfg0.win 6).cut (grid0.coords t) ((dats m 0 c).after 6 t) = _
  rw [after0_6]
  unfold outsAt0
  dsimp only
  funext y
  obtain ⟨l, rfl⟩ : ∃ l : Fin 512, y = ix2 (0 : Fin 1) l :=
    ⟨y 1, (eq_ix2 y).trans (congrArg (fun p => ix2 p (y 1)) (Fin.fin_one_eq_zero (y 0)))⟩
  refine (out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) l).trans ?_
  have hcol : ((((cfg0.win 6).blk t).view.emb (ix2 (0 : Fin 1) l) : S1x8192.Idx) 1 : Fin 8192) = ⟨512 * t.val + l.val, pos_lt t l⟩ :=
    Fin.ext (by show win0_6.index t (1 : Fin 2) * 512 + 1 * l.val = 512 * t.val + l.val; rw [e61]; omega)
  show _ = Spec.thresh (Spec.spike (Spec.current (A0 m c) (A1 m c) ((((cfg0.win 6).blk t).view.emb (ix2 (0 : Fin 1) l) : S1x8192.Idx) 1 : Fin 8192))
      (A2 m c (ix1 ((((cfg0.win 6).blk t).view.emb (ix2 (0 : Fin 1) l) : S1x8192.Idx) 1 : Fin 8192)))
      (A4 m c (ix1 ((((cfg0.win 6).blk t).view.emb (ix2 (0 : Fin 1) l) : S1x8192.Idx) 1 : Fin 8192)))
      (A3 m c (ix1 ((((cfg0.win 6).blk t).view.emb (ix2 (0 : Fin 1) l) : S1x8192.Idx) 1 : Fin 8192))))
      (A3 m c (ix1 ((((cfg0.win 6).blk t).view.emb (ix2 (0 : Fin 1) l) : S1x8192.Idx) 1 : Fin 8192)))
  rw [hcol, cur_pt, blk2_at, blk3_at, blk4_at]
  rfl

/-! ## The blocks tile the rows -/

/-- An entry of the row is in point `t`'s block of window 5 iff each coordinate is in the block's range. -/
theorem mem_blk5 (t : Fin cfg0.N) (i : S1x8192.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v3_0).slice (win0_5.rect t)).set ↔ _
  rw [View.set_slice_whole, Rect.mem_set_unit]
  exact Iff.rfl

/-- Every entry (0, j) of the row is in the block of point j / 512, and every point writes its block back. -/
theorem cover5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 16 := N_0
  obtain ⟨t, ht⟩ : ∃ t : Fin cfg0.N, t.val = (i 1).val / 512 := ⟨⟨(i 1).val / 512, by rw [hN]; omega⟩, rfl⟩
  obtain ⟨-, -, -, -, -, -, -, -, -, -, e50, e51, -⟩ := idx_facts t
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; rw [e50]; omega
  | ⟨1, _⟩ => show win0_5.index t (1 : Fin 2) * 512 ≤ (i 1).val ∧ (i 1).val < win0_5.index t (1 : Fin 2) * 512 + 512; rw [e51]; omega

/-- An entry of the row is in point `t`'s block of window 6 iff each coordinate is in the block's range. -/
theorem mem_blk6 (t : Fin cfg0.N) (i : S1x8192.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v3_1).slice (win0_6.rect t)).set ↔ _
  rw [View.set_slice_whole, Rect.mem_set_unit]
  exact Iff.rfl

/-- Every entry (0, j) of the row is in the block of point j / 512, and every point writes its block back. -/
theorem cover6 (i : S1x8192.Idx) : ∃ t : Fin cfg0.N, (cfg0.win 6).flush t = true ∧ i ∈ ((cfg0.win 6).blk t).view.set := by
  have hi0 : (i 0).val < 1 := (i 0).isLt
  have hi1 : (i 1).val < 8192 := (i 1).isLt
  have hN : cfg0.N = 16 := N_0
  obtain ⟨t, ht⟩ : ∃ t : Fin cfg0.N, t.val = (i 1).val / 512 := ⟨⟨(i 1).val / 512, by rw [hN]; omega⟩, rfl⟩
  obtain ⟨-, -, -, -, -, -, -, -, -, -, -, -, e60, e61, -⟩ := idx_facts t
  refine ⟨t, flush0_6 t, ?_⟩
  rw [mem_blk6]
  intro a
  match a with
  | ⟨0, _⟩ => show win0_6.index t (0 : Fin 2) * 1 ≤ (i 0).val ∧ (i 0).val < win0_6.index t (0 : Fin 2) * 1 + 1; rw [e60]; omega
  | ⟨1, _⟩ => show win0_6.index t (1 : Fin 2) * 512 ≤ (i 1).val ∧ (i 1).val < win0_6.index t (1 : Fin 2) * 512 + 512; rw [e61]; omega

/-- An entry of the row is in point `t`'s block of window 7 iff each coordinate is in the block's range. -/
theorem mem_blk7 (t : Fin cfg0.N) (i : S1x8192.Idx) :
    i ∈ ((cfg0.win 7).blk t).view.set ↔ ∀ a : Fin 2, win0_7.index t a * S1x512.size a ≤ (i a).val ∧ (i a).val < win0_7.index t a * S1x512.size a + S1x512.size a := by
  show i ∈ ((View.whole main_v3_2).slice (win0_7.rect t)).set ↔ _
  rw [View.set_slice_whole, Rect.mem_set_unit]
  exact Iff.rfl

/-- Every entry (0, j) of the row is in the block of point j / 512, and every point writes its block back. -/
theorem cover7 (i : S1x8192.Idx) : ∃ t : Fin cfg0.N, (cfg0.win 7).flush t = true ∧ i ∈ ((cfg0.win 7).blk t).view.set := by
  have hi0 : (i 0).val < 1 := (i 0).isLt
  have hi1 : (i 1).val < 8192 := (i 1).isLt
  have hN : cfg0.N = 16 := N_0
  obtain ⟨t, ht⟩ : ∃ t : Fin cfg0.N, t.val = (i 1).val / 512 := ⟨⟨(i 1).val / 512, by rw [hN]; omega⟩, rfl⟩
  obtain ⟨-, -, -, -, -, -, -, -, -, -, -, -, -, -, e70, e71⟩ := idx_facts t
  refine ⟨t, flush0_7 t, ?_⟩
  rw [mem_blk7]
  intro a
  match a with
  | ⟨0, _⟩ => show win0_7.index t (0 : Fin 2) * 1 ≤ (i 0).val ∧ (i 0).val < win0_7.index t (0 : Fin 2) * 1 + 1; rw [e70]; omega
  | ⟨1, _⟩ => show win0_7.index t (1 : Fin 2) * 512 ≤ (i 1).val ∧ (i 1).val < win0_7.index t (1 : Fin 2) * 512 + 512; rw [e71]; omega

/-! ## The arrays after the region -/

theorem final5 (c : Dev nD) : (dats m 0 c).arrAt 5 cfg0.N = spkRow m c :=
  (dats m 0 c).arrAt_eq_of_cover 5 (spkRow m c) (fun t _ => flushed5_eq m c t) cover5
theorem final6 (c : Dev nD) : (dats m 0 c).arrAt 6 cfg0.N = thrRow m c :=
  (dats m 0 c).arrAt_eq_of_cover 6 (thrRow m c) (fun t _ => flushed6_eq m c t) cover6
theorem final7 (c : Dev nD) : (dats m 0 c).arrAt 7 cfg0.N = curRow m c :=
  (dats m 0 c).arrAt_eq_of_cover 7 (curRow m c) (fun t _ => flushed7_eq m c t) cover7

/-- Read back flat, a row is the vector it lays out. -/
theorem flat_of_row (f : S8192.Idx → Ideal .f32) : shapeCast S8192 (rowOf f) shapeCasts_S1x8192_S8192 = f := by
  funext i
  refine (shapeCast_apply (rowOf f) shapeCasts_S1x8192_S8192 i (ix2 (0 : Fin 1) (i 0))
    (by rewrite [Shape.rowMajor_val_two, Shape.rowMajor_val_one]; show 0 * 8192 + (i 0).val = (i 0).val; omega)).trans ?_
  exact congrArg f (eq_ix1 i).symm

end Cert.KernelIdeal.Arrays

end
-- ==== Proof.KernelRun.lean ====
/-
  The idealized kernel's run, read: its three results are the functions of `Spec` of the argument arrays.

  After the region the program reads the three [1, 8192] result rows back as flat vectors (a row read back flat
  is the vector it lays out), returns the spikes and the thresholds as they are, and computes the new membrane
  potential from the spikes, the currents and the old potential with the whole-array operations of
  `Spec.membrane`. The potential argument itself is no array of the region and no later line writes it, so the
  tail finds it as launched.
-/
import proofs.«142710_j53111565582354_2_alg».proof.Proof.Arrays
import Idealize.ShloMosaic.Lib.StableHlo.Run

set_option maxRecDepth 16384

noncomputable section

namespace Cert.KernelIdeal.KernelRun

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Arrays

variable (m : (ℓ : Loc nD τ sig) → Buf (Elt Ideal) ℓ) (ρ : Dev nD → PrngReg)

/-! ## What the lines after the region find -/

/-- The three result rows, as the region leaves them. -/
theorem arr5 (c : Dev nD) : (Pipeline.withArrays (cfgs 0).spec c (V0 m c) (fun w => (dats m 0 c).arrAt w (cfgs 0).N) (Proc.devRef .tc main_v3_0) : S1x8192.Idx → Ideal .f32) = spkRow m c :=
  (Pipeline.withArrays_arr (cfgs 0).spec launch0.win.arr_inj c (V0 m c) (fun w => (dats m 0 c).arrAt w (cfgs 0).N) 5).trans (final5 m c)
theorem arr6 (c : Dev nD) : (Pipeline.withArrays (cfgs 0).spec c (V0 m c) (fun w => (dats m 0 c).arrAt w (cfgs 0).N) (Proc.devRef .tc main_v3_1) : S1x8192.Idx → Ideal .f32) = thrRow m c :=
  (Pipeline.withArrays_arr (cfgs 0).spec launch0.win.arr_inj c (V0 m c) (fun w => (dats m 0 c).arrAt w (cfgs 0).N) 6).trans (final6 m c)
theorem arr7 (c : Dev nD) : (Pipeline.withArrays (cfgs 0).spec c (V0 m c) (fun w => (dats m 0 c).arrAt w (cfgs 0).N) (Proc.devRef .tc main_v3_2) : S1x8192.Idx → Ideal .f32) = curRow m c :=
  (Pipeline.withArrays_arr (cfgs 0).spec launch0.win.arr_inj c (V0 m c) (fun w => (dats m 0 c).arrAt w (cfgs 0).N) 7).trans (final7 m c)

/-- The potential argument, as launched. -/
theorem arr_arg2 (c : Dev nD) : (Pipeline.withArrays (cfgs 0).spec c (V0 m c) (fun w => (dats m 0 c).arrAt w (cfgs 0).N) (Proc.devRef .tc main_arg2) : S8192.Idx → Ideal .f32) = A2 m c :=
  (Pipeline.withArrays_of_ne (cfgs 0).spec c (V0 m c) (fun w => (dats m 0 c).arrAt w (cfgs 0).N) main_arg2
    (by exact (by decide : ∀ w, Pipeline.arrRef spec0 w ≠ main_arg2))).trans (V_main_arg2 m c)

/-- The rows read back flat. -/
theorem flat5 (c : Dev nD) : shapeCast S8192 (Pipeline.withArrays (cfgs 0).spec c (V0 m c) (fun w => (dats m 0 c).arrAt w (cfgs 0).N) (Proc.devRef .tc main_v3_0) : S1x8192.Idx → Ideal .f32) shapeCasts_S1x8192_S8192
    = Spec.spikeV (A0 m c) (A1 m c) (A2 m c) (A3 m c) (A4 m c) := by
  rw [arr5]; exact flat_of_row _
theorem flat6 (c : Dev nD) : shapeCast S8192 (Pipeline.withArrays (cfgs 0).spec c (V0 m c) (fun w => (dats m 0 c).arrAt w (cfgs 0).N) (Proc.devRef .tc main_v3_1) : S1x8192.Idx → Ideal .f32) shapeCasts_S1x8192_S8192
    = Spec.threshV (A0 m c) (A1 m c) (A2 m c) (A3 m c) (A4 m c) := by
  rw [arr6]; exact flat_of_row _
theorem flat7 (c : Dev nD) : shapeCast S8192 (Pipeline.withArrays (cfgs 0).spec c (V0 m c) (fun w => (dats m 0 c).arrAt w (cfgs 0).N) (Proc.devRef .tc main_v3_2) : S1x8192.Idx → Ideal .f32) shapeCasts_S1x8192_S8192
    = Spec.currentV (A0 m c) (A1 m c) := by
  rw [arr7]; exact flat_of_row _

/-! ## The three results after the last line -/

theorem tail_v4 (c : Dev nD) :
    Pipeline.afterTail₀ cfgs (dats m) 0 (V0 m) [hostOps1] c main_v4 = Spec.spikeV (A0 m c) (A1 m c) (A2 m c) (A3 m c) (A4 m c) := by
  unfold Pipeline.afterTail₀
  show StableHlo.after hostOps1 _ (Proc.devRef .tc main_v4) = _
  after_results
  exact flat5 m c

theorem tail_v5 (c : Dev nD) :
    Pipeline.afterTail₀ cfgs (dats m) 0 (V0 m) [hostOps1] c main_v5 = Spec.threshV (A0 m c) (A1 m c) (A2 m c) (A3 m c) (A4 m c) := by
  unfold Pipeline.afterTail₀
  show StableHlo.after hostOps1 _ (Proc.devRef .tc main_v5) = _
  after_results
  exact flat6 m c

theorem tail_v16 (c : Dev nD) :
    Pipeline.afterTail₀ cfgs (dats m) 0 (V0 m) [hostOps1] c main_v16
      = Spec.membrane bcast_S_S8192 reducesTo_S8192_S_d0 h_S_ (Spec.spikeV (A0 m c) (A1 m c) (A2 m c) (A3 m c) (A4 m c)) (Spec.currentV (A0 m c) (A1 m c)) (A2 m c) := by
  unfold Pipeline.afterTail₀
  show StableHlo.after hostOps1 _ (Proc.devRef .tc main_v16) = _
  after_results
  show Spec.membrane bcast_S_S8192 reducesTo_S8192_S_d0 h_S_
      (shapeCast S8192 (Pipeline.withArrays (cfgs 0).spec c (V0 m c) (fun w => (dats m 0 c).arrAt w (cfgs 0).N) (Proc.devRef .tc main_v3_0) : S1x8192.Idx → Ideal .f32) shapeCasts_S1x8192_S8192)
      (shapeCast S8192 (Pipeline.withArrays (cfgs 0).spec c (V0 m c) (fun w => (dats m 0 c).arrAt w (cfgs 0).N) (Proc.devRef .tc main_v3_2) : S1x8192.Idx → Ideal .f32) shapeCasts_S1x8192_S8192)
      (Pipeline.withArrays (cfgs 0).spec c (V0 m c) (fun w => (dats m 0 c).arrAt w (cfgs 0).N) (Proc.devRef .tc main_arg2) : S8192.Idx → Ideal .f32) = _
  rw [flat5, flat7, arr_arg2]

/-! ## The run -/

/-- Every weakly fair execution of the idealized kernel's @main terminates with the spikes, the new membrane
    potentials and the adapted thresholds of `Spec` in its three results, the arguments unchanged. -/
theorem run : θ_run defs (onTc (τ := τ) (main (F := Ideal))) ⟨m, fun _ => 0, ρ⟩ fun r => ∀ c : Dev nD,
      r.2.mem ((c.tc : Thread nD τ).loc main_v4) = Spec.spikeV (A0 m c) (A1 m c) (A2 m c) (A3 m c) (A4 m c)
      ∧ r.2.mem ((c.tc : Thread nD τ).loc main_v16) = Spec.membrane bcast_S_S8192 reducesTo_S8192_S_d0 h_S_ (Spec.spikeV (A0 m c) (A1 m c) (A2 m c) (A3 m c) (A4 m c)) (Spec.currentV (A0 m c) (A1 m c)) (A2 m c)
      ∧ r.2.mem ((c.tc : Thread nD τ).loc main_v5) = Spec.threshV (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v4 (Pipeline.mem_restRefs_of main_v4 (by decide) (by decide))).trans (tail_v4 m c),
       ((h c).2 main_v16 (Pipeline.mem_restRefs_of main_v16 (by decide) (by decide))).trans (tail_v16 m c),
       ((h c).2 main_v5 (Pipeline.mem_restRefs_of main_v5 (by decide) (by decide))).trans (tail_v5 m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.KernelRun

end
-- ==== Proof.RefValue.lean ====
/-
  The reference program's three results, at the ideal instance, are the functions of `Spec`.

  The reference thresholds the whole state matrix, transposes it, contracts the input row against it in one
  `dot_general`, flattens the [1, 8192] result, and applies the pointwise spike and threshold formulas and the
  membrane update on flat vectors. Read at an index, the contraction is the sum over all 8192 inputs of the input
  times the weight of the state in row `j` (the transpose only swaps which coordinate the row index lands on); the
  rest is the same operations as in `Spec`, one after the other.
-/
import proofs.«142710_j53111565582354_2_alg».proof.Proof.Gen.ReferenceIdeal.Read
import proofs.«142710_j53111565582354_2_alg».proof.Proof.Spec

set_option maxRecDepth 16384

noncomputable section

namespace Cert.ReferenceIdeal.RefValue

open Idealize.ShloMosaic Idealize.ShloMosaic.TcCoe Idealize.SL.Sem
open Idealize.ShloMosaic.ValueIdx
open Cert.ReferenceIdeal Cert.ReferenceIdeal.Gen Cert.ReferenceIdeal.Read

/-- The thresholded state matrix, entry by entry, is the weight of the state. -/
theorem wgt_eq (x1 : S8192x8192.Idx → Ideal .f32) (J : S8192x8192.Idx) : val_main_v2 (F := Ideal) x1 J = Spec.wgt (x1 J) := by
  rw [val_main_v2_apply, val_main_v1_apply, val_main_v0_apply, val_main_cst_apply]
  rfl

/-- The flattened contraction is the current of every neuron. -/
theorem cur_eq (x0 : S1x8192.Idx → Ideal .f32) (x1 : S8192x8192.Idx → Ideal .f32) :
    val_main_v5 (F := Ideal) x0 x1 = Spec.currentV x0 x1 := by
  funext i
  rw [val_main_v5_apply, val_main_v4_apply]
  show _ = ∑ k : Fin 8192, x0 (ix2 (0 : Fin 1) k) * Spec.wgt (x1 (ix2 (i 0) k))
  refine Finset.sum_congr rfl fun k _ => ?_
  rw [val_main_v3_apply, wgt_eq]
  have el : lidx_main_v4 (idx_main_v5 i) k = ix2 (0 : Fin 1) k := funext fun a => Fin.ext (by
    match a with
    | ⟨0, _⟩ => rfl
    | ⟨1, _⟩ => rfl)
  have er : idx_main_v3 (ridx_main_v4 (idx_main_v5 i) k) = ix2 (i 0) k := funext fun a => Fin.ext (by
    match a with
    | ⟨0, _⟩ => exact Nat.mod_eq_of_lt (i 0).isLt
    | ⟨1, _⟩ => rfl)
  rw [el, er]
  rfl

/-- The spikes. -/
theorem spk_eq (x0 : S1x8192.Idx → Ideal .f32) (x1 : S8192x8192.Idx → Ideal .f32) (x2 x3 x4 : S8192.Idx → Ideal .f32) :
    val_main_v9 (F := Ideal) x0 x1 x2 x3 x4 = Spec.spikeV x0 x1 x2 x3 x4 := by
  funext i
  rw [val_main_v9_apply, val_main_v8_apply, val_main_v7_apply, val_main_v6_apply, cur_eq]
  rfl

/-- The adapted thresholds: the reference's `clip` is the same maximum then minimum against the same two words. -/
theorem thr_eq (x0 : S1x8192.Idx → Ideal .f32) (x1 : S8192x8192.Idx → Ideal .f32) (x2 x3 x4 : S8192.Idx → Ideal .f32) :
    val_main_v25 (F := Ideal) x0 x1 x2 x3 x4 = Spec.threshV x0 x1 x2 x3 x4 := by
  funext i
  rw [val_main_v25_apply, val_main_call0_v4_apply, val_main_call0_v2_apply, val_main_call0_v1_apply, val_main_v24_apply,
    val_main_v23_apply, val_main_v22_apply, val_main_v21_apply, val_main_v20_apply, spk_eq]
  rfl

/-- The new membrane potentials: the reference's last ten operations are `Spec.membrane` of its spikes, its currents and
    the old potential. -/
theorem mem_eq (x0 : S1x8192.Idx → Ideal .f32) (x1 : S8192x8192.Idx → Ideal .f32) (x2 x3 x4 : S8192.Idx → Ideal .f32) :
    val_main_v19 (F := Ideal) x0 x1 x2 x3 x4
      = Spec.membrane bcast_S_S8192 reducesTo_S8192_S_d0 h_S_ (Spec.spikeV x0 x1 x2 x3 x4) (Spec.currentV x0 x1) x2 := by
  have e : val_main_v19 (F := Ideal) x0 x1 x2 x3 x4
      = Spec.membrane bcast_S_S8192 reducesTo_S8192_S_d0 h_S_ (val_main_v9 (F := Ideal) x0 x1 x2 x3 x4) (val_main_v5 (F := Ideal) x0 x1) x2 := rfl
  rw [e, spk_eq, cur_eq]

/-- The reference's run, read: every weakly fair execution ends with the three results at the functions of `Spec` of
    the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = Spec.spikeV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v19) = Spec.membrane bcast_S_S8192 reducesTo_S8192_S_d0 h_S_
          (Spec.spikeV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (Spec.currentV (m ((c.tc : Thread nD τ).loc main_arg0)) (m ((c.tc : Thread nD τ).loc main_arg1))) (m ((c.tc : Thread nD τ).loc main_arg2))
      ∧ r.2.mem ((c.tc : Thread nD τ).loc main_v25) = Spec.threshV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans ((val_main_v9_eq _ _ _ _ _).trans (spk_eq _ _ _ _ _)),
       (h c).2.1.trans ((val_main_v19_eq _ _ _ _ _).trans (mem_eq _ _ _ _ _)),
       (h c).2.2.1.trans ((val_main_v25_eq _ _ _ _ _).trans (thr_eq _ _ _ _ _)),
       (h c).2.2.2⟩)
    (Cert.ReferenceIdeal.Value.run (F := Ideal) m ρ)

end Cert.ReferenceIdeal.RefValue

end
-- ==== Proof.lean ====
/-
  One step of a layer of 8192 thresholded spiking neurons over 8192 inputs: the kernel against its reference.

  Both programs compute, for every neuron j,
    the current   I(j)   = sum over k of x(k) * [state(j,k) > 50],
    the spike     s(j)   = [(v(j) + I(j)) + noise(j) >= th(j)],
    the threshold th'(j) = min(5, max(0.2, th(j) + (s(j) - 0.1) * 0.01)),
    the potential v'(j)  = ((v(j) - (sum of all spikes) * 0.5) + I(j)) * (1 - s(j)) * 0.5,
  and return s, v', th' (`Spec`). The float constants are the same binary words on both sides.

  The kernel walks a grid of 16 points; point t handles neurons 512 t … 512 t + 511, takes each neuron's contraction in
  four slices of 2048 inputs (a matrix product into zero per slice) and adds the four partial sums in order. Over the
  extended reals a sum does not depend on its order or grouping, so that is the one contraction over all 8192 inputs the
  reference takes with a single `dot_general` (`LibSumChunks`); the matrix product's narrower input format is the
  identity at the ideal instance. The kernel turns a comparison into a float by widening the bit and reading it as
  a signed integer, the reference by reading the bit unsigned: the same number (`LibBitCast`). The spike and
  threshold formulas are then the same pointwise operations on both sides, and both programs finish with the same
  whole-array operations for the potential, which are kept as one function and never opened. No step needs the
  inputs to be finite: the precondition is never used.

  `PointValue`: one grid point's three output blocks, entry by entry. `Arrays`: the 16 blocks tile the three
  result rows. `KernelRun` and `RefValue`: each program's run ends with the three results at the functions of
  `Spec` of its argument arrays. Here: the frames, and the two runs side by side from agreeing arguments.
-/
import proofs.«142710_j53111565582354_2_alg».proof.Defs
import proofs.«142710_j53111565582354_2_alg».proof.Proof.Gen.Kernel
import proofs.«142710_j53111565582354_2_alg».proof.Proof.Gen.Kernel.Skeleton
import proofs.«142710_j53111565582354_2_alg».proof.Proof.Gen.Kernel.Launch
import proofs.«142710_j53111565582354_2_alg».proof.Proof.Gen.Kernel.Points
import proofs.«142710_j53111565582354_2_alg».proof.Proof.Gen.Kernel.Frame
import proofs.«142710_j53111565582354_2_alg».proof.Proof.Gen.KernelIdeal
import proofs.«142710_j53111565582354_2_alg».proof.Proof.Gen.KernelIdeal.Skeleton
import proofs.«142710_j53111565582354_2_alg».proof.Proof.Gen.KernelIdeal.Launch
import proofs.«142710_j53111565582354_2_alg».proof.Proof.Gen.KernelIdeal.Points
import proofs.«142710_j53111565582354_2_alg».proof.Proof.Gen.KernelIdeal.Frame
import proofs.«142710_j53111565582354_2_alg».proof.Proof.Gen.ReferenceIdeal
import proofs.«142710_j53111565582354_2_alg».proof.Proof.Gen.ReferenceIdeal.Run
import proofs.«142710_j53111565582354_2_alg».proof.Proof.Gen.ReferenceIdeal.Read
import proofs.«142710_j53111565582354_2_alg».proof.Proof.Gen.Pre_finite_inputs
import proofs.«142710_j53111565582354_2_alg».proof.Proof.KernelRun
import proofs.«142710_j53111565582354_2_alg».proof.Proof.RefValue
import Idealize.ShloMosaic.Adequacy
import Idealize.ShloMosaic.Init

noncomputable section

namespace Cert.Proof

open Idealize.ShloMosaic Idealize.SL.Sem

/-- The word-level kernel runs to the end without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: the idealized kernel is the kernel's own text read at the ideal instance. -/
theorem preserves : Cert.preserves_Kernel_KernelIdeal := trivial

/-- From memories that agree on the five arguments both programs end with the spikes, the new potentials and the
    adapted thresholds of `Spec` of those arguments: equal extended reals, entry by entry. -/
theorem algebraic : Cert.algebraic_KernelIdeal_ReferenceIdeal := by
  intro m ρ m' ρ' _ hagree
  refine ⟨fun c => Cert.Spec.spikeV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.membrane Cert.KernelIdeal.Gen.bcast_S_S8192 Cert.KernelIdeal.Gen.reducesTo_S8192_S_d0 Cert.KernelIdeal.Gen.h_S_
      (Cert.Spec.spikeV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.Spec.currentV (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)),
    fun c => Cert.Spec.threshV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelRun.run m ρ, ?_⟩
  refine (θ_run Cert.ReferenceIdeal.defs _ _).mono (fun _ h c => ?_) (Cert.ReferenceIdeal.RefValue.run m' ρ')
  obtain ⟨h9, h19, h25, hargs⟩ := h c
  obtain ⟨a0, a1, a2, a3, a4⟩ := hagree c
  refine ⟨h9.trans ?_, h19.trans ?_, h25.trans ?_, hargs⟩
  · rw [a0, a1, a2, a3, a4]
  · rw [a0, a1, a2, a3, a4]
  · rw [a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
